-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x16x16 : Shape := ⟨4, ![4096, 64, 16, 16]⟩
abbrev S1x1x1x7 : Shape := ⟨4, ![1, 1, 1, 7]⟩
abbrev S_ : Shape := ⟨0, ![]⟩

class Facts : Prop where
  bcast_S_S4096x64x16x16 : S_.BroadcastsInDim S4096x64x16x16 (![] : Fin 0 → Fin S4096x64x16x16.rank)
  reducesTo_S4096x64x16x16_S_d0_1_2_3 : S4096x64x16x16.ReducesTo [0, 1, 2, 3] S_
  h_S_ : 0 < S_.numel
  bcast_S_S1x1x1x7 : S_.BroadcastsInDim S1x1x1x7 (![] : Fin 0 → Fin S1x1x1x7.rank)
  reducesTo_S1x1x1x7_S_d0_1_2_3 : S1x1x1x7.ReducesTo [0, 1, 2, 3] S_

variable [Facts]

def fn {F : FTy → Type} [FloatOps F] (main_arg0 : FVec F S4096x64x16x16 .f32) (main_arg1 : FVec F S1x1x1x7 .f32) : IVec S_ 1 :=
  let main_v0 : FVec F S4096x64x16x16 .f32 := Host.absf main_arg0
  let main_cst : FVec F S_ .f32 := constant S_ .f32 0x7F800000#32
  let main_v1 : FVec F S4096x64x16x16 .f32 := broadcastInDim S4096x64x16x16 ![] bcast_S_S4096x64x16x16 main_cst
  let main_v2 : IVec S4096x64x16x16 1 := cmpf .olt main_v0 main_v1
  let main_c : IVec S_ 1 := constantI S_ 1 1#1
  let main_v3 : IVec S_ 1 := (fun x v => Host.reduce IntOp.andi x v reducesTo_S4096x64x16x16_S_d0_1_2_3 h_S_) main_v2 main_c
  let main_v4 : FVec F S1x1x1x7 .f32 := Host.absf main_arg1
  let main_cst_0 : FVec F S_ .f32 := constant S_ .f32 0x7F800000#32
  let main_v5 : FVec F S1x1x1x7 .f32 := broadcastInDim S1x1x1x7 ![] bcast_S_S1x1x1x7 main_cst_0
  let main_v6 : IVec S1x1x1x7 1 := cmpf .olt main_v4 main_v5
  let main_c_1 : IVec S_ 1 := constantI S_ 1 1#1
  let main_v7 : IVec S_ 1 := (fun x v => Host.reduce IntOp.andi x v reducesTo_S1x1x1x7_S_d0_1_2_3 h_S_) main_v6 main_c_1
  let main_v8 : IVec S_ 1 := andi main_v3 main_v7
  main_v8
-- ==== Kernel.lean ====
abbrev S4096x64x16x16 : Shape := ⟨4, ![4096, 64, 16, 16]⟩
abbrev S1x1x1x7 : Shape := ⟨4, ![1, 1, 1, 7]⟩
abbrev S64x64x16x16 : Shape := ⟨4, ![64, 64, 16, 16]⟩
abbrev S4096x16x16 : Shape := ⟨3, ![4096, 16, 16]⟩
abbrev S16x16 : Shape := ⟨2, ![16, 16]⟩
abbrev S1x16x16 : Shape := ⟨3, ![1, 16, 16]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x64x16x16, .f32⟩
  | .hbm, ⟨1, _⟩ => ⟨S1x1x1x7, .f32⟩
  | .hbm, ⟨2, _⟩ => ⟨S4096x64x16x16, .f32⟩
  | .local _ .vmem, ⟨0, _⟩ => ⟨S64x64x16x16, .f32⟩
  | .local _ .vmem, ⟨1, _⟩ => ⟨S64x64x16x16, .f32⟩
  | .local _ .vmem, ⟨2, _⟩ => ⟨S1x1x1x7, .f32⟩
  | .local _ .vmem, ⟨3, _⟩ => ⟨S64x64x16x16, .f32⟩
  | .local _ .vmem, ⟨4, _⟩ => ⟨S64x64x16x16, .f32⟩
  | _, _ => ⟨S4096x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x64x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x64x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x64x16x16_S64x64x16x16_0_0_0_0 : ∀ a, (![0, 0, 0, 0] : Fin 4 → Nat) a + S64x64x16x16.size a ≤ S64x64x16x16.size a
  h_S64x64x16x16 : 0 < S64x64x16x16.numel
  shapeCasts_S64x64x16x16_S4096x16x16 : S64x64x16x16.ShapeCasts S4096x16x16
  inb_S1x1x1x7_S1x1x1x7_0_0_0_0 : ∀ a, (![0, 0, 0, 0] : Fin 4 → Nat) a + S1x1x1x7.size a ≤ S1x1x1x7.size a
  h_S1x1x1x7 : 0 < S1x1x1x7.numel
  iota_S16x16_d0_w32 : S16x16.Iotas .tc 32 [0]
  iota_S16x16_d1_w32 : S16x16.Iotas .tc 32 [1]
  natLt_1_32 : 1 < 32
  shapeCasts_S16x16_S1x16x16 : S16x16.ShapeCasts S1x16x16
  broadcasts_S1x16x16_S4096x16x16 : S1x16x16.Broadcasts S4096x16x16
  slices_S1x1x1x7_o0_0_0_0_S1x1x1x1 : S1x1x1x7.Slices ![0, 0, 0, 0] S1x1x1x1
  inpos_S1x1x1x1_p0_0_0_0 : ∀ a, (![0, 0, 0, 0] : Fin 4 → Nat) a < S1x1x1x1.size a
  slices_S1x1x1x7_o0_0_0_1_S1x1x1x1 : S1x1x1x7.Slices ![0, 0, 0, 1] S1x1x1x1
  slices_S1x1x1x7_o0_0_0_2_S1x1x1x1 : S1x1x1x7.Slices ![0, 0, 0, 2] S1x1x1x1
  slices_S1x1x1x7_o0_0_0_3_S1x1x1x1 : S1x1x1x7.Slices ![0, 0, 0, 3] S1x1x1x1
  slices_S1x1x1x7_o0_0_0_4_S1x1x1x1 : S1x1x1x7.Slices ![0, 0, 0, 4] S1x1x1x1
  slices_S1x1x1x7_o0_0_0_5_S1x1x1x1 : S1x1x1x7.Slices ![0, 0, 0, 5] S1x1x1x1
  slices_S1x1x1x7_o0_0_0_6_S1x1x1x1 : S1x1x1x7.Slices ![0, 0, 0, 6] S1x1x1x1
  shapeCasts_S4096x16x16_S64x64x16x16 : S4096x16x16.ShapeCasts S64x64x16x16
  dot_S4096x16x16_S4096x16x16_S4096x16x16_2_2_1_1_0_0_wf : DotDims.WF S4096x16x16 S4096x16x16 S4096x16x16 [2] [2] [1] [1] [0] [0]
  dot_S4096x16x16_S4096x16x16_S4096x16x16_2_1_1_2_0_0_wf : DotDims.WF S4096x16x16 S4096x16x16 S4096x16x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x16x16.size a ≤ S4096x64x16x16.size a
  hwx0_0 : ∀ i : grid0.Coords, EltTy.bits .f32 = 32 ∨ (Rect.block (s := S4096x64x16x16) S64x64x16x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1x7.size a ≤ S1x1x1x7.size a
  hwx0_1 : ∀ i : grid0.Coords, EltTy.bits .f32 = 32 ∨ (Rect.block (s := S1x1x1x7) S1x1x1x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x16x16.size a ≤ S4096x64x16x16.size a
  hwx0_2 : ∀ i : grid0.Coords, EltTy.bits .f32 = 32 ∨ (Rect.block (s := S4096x64x16x16) S64x64x16x16.size (cc0_transform_2 i) (hinb0_2 i)).WholeWords (EltTy.packing .f32)

variable [Facts₀]

def dot_S4096x16x16_S4096x16x16_S4096x16x16_2_2_1_1_0_0 : DotDims S4096x16x16 S4096x16x16 S4096x16x16 where
  lhsContracting := [2]
  rhsContracting := [2]
  lhsNonContracting := [1]
  rhsNonContracting := [1]
  lhsBatch := [0]
  rhsBatch := [0]
  wf := dot_S4096x16x16_S4096x16x16_S4096x16x16_2_2_1_1_0_0_wf
def dot_S4096x16x16_S4096x16x16_S4096x16x16_2_1_1_2_0_0 : DotDims S4096x16x16 S4096x16x16 S4096x16x16 where
  lhsContracting := [2]
  rhsContracting := [1]
  lhsNonContracting := [1]
  rhsNonContracting := [2]
  lhsBatch := [0]
  rhsBatch := [0]
  wf := dot_S4096x16x16_S4096x16x16_S4096x16x16_2_1_1_2_0_0_wf

abbrev win0_0 : Pipeline.Window sig grid0 :=
  Pipeline.Window.ofSpec (Memref.whole main_arg0) S64x64x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64x16x16 : Shape := ⟨4, ![4096, 64, 16, 16]⟩
abbrev S1x1x1x7 : Shape := ⟨4, ![1, 1, 1, 7]⟩
abbrev S16x16 : Shape := ⟨2, ![16, 16]⟩
abbrev S_ : Shape := ⟨0, ![]⟩
abbrev S1x1x16x16 : Shape := ⟨4, ![1, 1, 16, 16]⟩
abbrev S7 : Shape := ⟨1, ![7]⟩
abbrev S1 : Shape := ⟨1, ![1]⟩

abbrev nBuf : Space → Nat
  | .hbm => 57
  | .vmem => 0
  | .smem => 0
  | _ => 0

abbrev bufTy : (tb : Table) → Fin (tcTables nBuf tb) → BufTy
  | .hbm, ⟨0, _⟩ => ⟨S4096x64x16x16, .f32⟩
  | .hbm, ⟨1, _⟩ => ⟨S1x1x1x7, .f32⟩
  | .hbm, ⟨2, _⟩ => ⟨S16x16, .i32⟩
  | .hbm, ⟨3, _⟩ => ⟨S16x16, .i32⟩
  | .hbm, ⟨4, _⟩ => ⟨S_, .i32⟩
  | .hbm, ⟨5, _⟩ => ⟨S16x16, .i32⟩
  | .hbm, ⟨6, _⟩ => ⟨S16x16, .i32⟩
  | .hbm, ⟨7, _⟩ => ⟨S16x16, .i1⟩
  | .hbm, ⟨8, _⟩ => ⟨S16x16, .f32⟩
  | .hbm, ⟨9, _⟩ => ⟨S4096x64x16x16, .f32⟩
  | .hbm, ⟨10, _⟩ => ⟨S4096x64x16x16, .f32⟩
  | .hbm, ⟨11, _⟩ => ⟨S1x1x16x16, .f32⟩
  | .hbm, ⟨12, _⟩ => ⟨S4096x64x16x16, .f32⟩
  | .hbm, ⟨13, _⟩ => ⟨S4096x64x16x16, .f32⟩
  | .hbm, ⟨14, _⟩ => ⟨S4096x64x16x16, .f32⟩
  | .hbm, ⟨15, _⟩ => ⟨S4096x64x16x16, .f32⟩
  | .hbm, ⟨16, _⟩ => ⟨S4096x64x16x16, .f32⟩
  | .hbm, ⟨17, _⟩ => ⟨S4096x64x16x16, .f32⟩
  | .hbm, ⟨18, _⟩ => ⟨S4096x64x16x16, .f32⟩
  | .hbm, ⟨19, _⟩ => ⟨S4096x64x16x16, .f32⟩
  | .hbm, ⟨20, _⟩ => ⟨S7, .f32⟩
  | .hbm, ⟨21, _⟩ => ⟨S1, .f32⟩
  | .hbm, ⟨22, _⟩ => ⟨S_, .f32⟩
  | .hbm, ⟨23, _⟩ => ⟨S4096x64x16x16, .f32⟩
  | .hbm, ⟨24, _⟩ => ⟨S4096x64x16x16, .f32⟩
  | .hbm, ⟨25, _⟩ => ⟨S1, .f32⟩
  | .hbm, ⟨26, _⟩ => ⟨S_, .f32⟩
  | .hbm, ⟨27, _⟩ => ⟨S4096x64x16x16, .f32⟩
  | .hbm, ⟨28, _⟩ => ⟨S4096x64x16x16, .f32⟩
  | .hbm, ⟨29, _⟩ => ⟨S4096x64x16x16, .f32⟩
  | .hbm, ⟨30, _⟩ => ⟨S1, .f32⟩
  | .hbm, ⟨31, _⟩ => ⟨S_, .f32⟩
  | .hbm, ⟨32, _⟩ => ⟨S4096x64x16x16, .f32⟩
  | .hbm, ⟨33, _⟩ => ⟨S4096x64x16x16, .f32⟩
  | .hbm, ⟨34, _⟩ => ⟨S4096x64x16x16, .f32⟩
  | .hbm, ⟨35, _⟩ => ⟨S1, .f32⟩
  | .hbm, ⟨36, _⟩ => ⟨S_, .f32⟩
  | .hbm, ⟨37, _⟩ => ⟨S4096x64x16x16, .f32⟩
  | .hbm, ⟨38, _⟩ => ⟨S4096x64x16x16, .f32⟩
  | .hbm, ⟨39, _⟩ => ⟨S4096x64x16x16, .f32⟩
  | .hbm, ⟨40, _⟩ => ⟨S1, .f32⟩
  | .hbm, ⟨41, _⟩ => ⟨S_, .f32⟩
  | .hbm, ⟨42, _⟩ => ⟨S4096x64x16x16, .f32⟩
  | .hbm, ⟨43, _⟩ => ⟨S4096x64x16x16, .f32⟩
  | .hbm, ⟨44, _⟩ => ⟨S4096x64x16x16, .f32⟩
  | .hbm, ⟨45, _⟩ => ⟨S1, .f32⟩
  | .hbm, ⟨46, _⟩ => ⟨S_, .f32⟩
  | .hbm, ⟨47, _⟩ => ⟨S4096x64x16x16, .f32⟩
  | .hbm, ⟨48, _⟩ => ⟨S4096x64x16x16, .f32⟩
  | .hbm, ⟨49, _⟩ => ⟨S4096x64x16x16, .f32⟩
  | .hbm, ⟨50, _⟩ => ⟨S1, .f32⟩
  | .hbm, ⟨51, _⟩ => ⟨S_, .f32⟩
  | .hbm, ⟨52, _⟩ => ⟨S4096x64x16x16, .f32⟩
  | .hbm, ⟨53, _⟩ => ⟨S4096x64x16x16, .f32⟩
  | .hbm, ⟨54, _⟩ => ⟨S4096x64x16x16, .f32⟩
  | .hbm, ⟨55, _⟩ => ⟨S4096x64x16x16, .f32⟩
  | .hbm, ⟨56, _⟩ => ⟨S4096x64x16x16, .f32⟩
  | _, _ => ⟨S4096x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩

abbrev nD : Nat := 1
abbrev τ : Topo := Topo.v7x

variable {F : FTy → Type} [FloatOps F]

class Facts₀ : Prop where
  bcast_S_S16x16 : S_.BroadcastsInDim S16x16 (![] : Fin 0 → Fin S16x16.rank)
  transposes_S4096x64x16x16_S4096x64x16x16_0_1_3_2 : S4096x64x16x16.Transposes [0, 1, 3, 2] S4096x64x16x16
  bcast_S16x16_S1x1x16x16_2_3 : S16x16.BroadcastsInDim S1x1x16x16 (![2, 3] : Fin 2 → Fin S1x1x16x16.rank)
  bcast_S1x1x16x16_S4096x64x16x16_0_1_2_3 : S1x1x16x16.BroadcastsInDim S4096x64x16x16 (![0, 1, 2, 3] : Fin 4 → Fin S4096x64x16x16.rank)
  shapeCasts_S1x1x1x7_S7 : S1x1x1x7.ShapeCasts S7
  slices_S7_S1_0 : S7.Slices ![0] S1
  shapeCasts_S1_S_ : S1.ShapeCasts S_
  bcast_S_S4096x64x16x16 : S_.BroadcastsInDim S4096x64x16x16 (![] : Fin 0 → Fin S4096x64x16x16.rank)
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  dot_S4096x64x16x16_S4096x64x16x16_S4096x64x16x16_3_2_2_3_01_01_wf : DotDims.WF S4096x64x16x16 S4096x64x16x16 S4096x64x16x16 [3] [2] [2] [3] [0, 1] [0, 1]

variable [Facts₀]

def dot_S4096x64x16x16_S4096x64x16x16_S4096x64x16x16_3_2_2_3_01_01 : DotDims S4096x64x16x16 S4096x64x16x16 S4096x64x16x16 where
  lhsContracting := [3]
  rhsContracting := [2]
  lhsNonContracting := [2]
  rhsNonContracting := [3]
  lhsBatch := [0, 1]
  rhsBatch := [0, 1]
  wf := dot_S4096x64x16x16_S4096x64x16x16_S4096x64x16x16_3_2_2_3_01_01_wf

class Facts : Prop extends Facts₀ where

variable [Facts]
-- ==== Proof.Layer.lean ====
/-
  What both programs compute, stated once, for ONE 16 × 16 matrix X and seven weights w over the extended reals:

      A = I − X · Xᵀ,      A₀ = A,  A_{j+1} = A_j · A_j   (so A_j is the 2^j-th power of A),
      M = w₀·A₀ + w₁·A₁ + … + w₆·A₆   (added from the left),      out = X + M · X,

  every entry of a matrix product the finite sum over the shared index. The array f32[4096, 64, 16, 16] is
  4096 × 64 independent such matrices (`slab`), the weights the seven entries of f32[1, 1, 1, 7] (`wts`), and `G` is
  the result array as ONE function of the two argument arrays, index by index.

  Both programs follow this formula operation by operation, in the same order and with the same grouping of the
  weighted sum, so no law of arithmetic is needed to join them: only that a product's entry is this sum on both sides,
  whichever way the operands are laid out. The identity matrix is built on both sides by comparing a row counter
  with a column counter and reading the one-bit answer as a number — read unsigned by one program, widened to 32 bits
  and read signed by the other: `eye_unsigned` and `eye_signed` say both are 1 on the diagonal and 0 off it.
-/
import Idealize.ShloMosaic.PureOps.Ideal
import Idealize.ShloMosaic.Lib.ValueIdx

noncomputable section

namespace Cert.Layer

open Idealize.ShloMosaic Idealize.ShloMosaic.ValueIdx

/-- A 16 × 16 matrix of extended reals, by row and column. -/
abbrev Mat := Fin 16 → Fin 16 → EReal

/-- The matrix product P · Q. -/
def mm (P Q : Mat) : Mat := fun n m => ∑ k : Fin 16, P n k * Q k m

/-- X · Xᵀ: rows of X against rows of X. -/
def gram (X : Mat) : Mat := fun n m => ∑ k : Fin 16, X n k * X m k

/-- The identity matrix. -/
def eye : Mat := fun n m => if n = m then 1 else 0

/-- A = I − X · Xᵀ. -/
def resid (X : Mat) : Mat := fun n m => eye n m - gram X n m

/-- A_j, the 2^j-th power of A by repeated squaring. -/
def pw (X : Mat) : ℕ → Mat
  | 0 => resid X
  | j + 1 => mm (pw X j) (pw X j)

/-- M = w₀·A₀ + … + w₆·A₆, added from the left. -/
def poly (X : Mat) (w : Fin 7 → EReal) : Mat := fun n m =>
  w 0 * pw X 0 n m + w 1 * pw X 1 n m + w 2 * pw X 2 n m + w 3 * pw X 3 n m + w 4 * pw X 4 n m
    + w 5 * pw X 5 n m + w 6 * pw X 6 n m

/-- out = X + M · X. -/
def out (X : Mat) (w : Fin 7 → EReal) : Mat := fun n m => X n m + mm (poly X w) X n m

/-- The argument array and the weight array as functions of their indices. -/
abbrev Arr := (⟨4, ![4096, 64, 16, 16]⟩ : Shape).Idx → EReal
abbrev Wts := (⟨4, ![1, 1, 1, 7]⟩ : Shape).Idx → EReal

/-- Matrix (b, c) of an array of a × b' such matrices (the whole argument, or one block of it). -/
def slab {a b' : ℕ} (x : (⟨4, ![a, b', 16, 16]⟩ : Shape).Idx → EReal) (b : Fin a) (c : Fin b') : Mat :=
  fun n k => x (ix4 b c n k)

/-- The seven weights. -/
def wts (w : Wts) : Fin 7 → EReal := fun j => w (ix4 0 0 0 j)

/-- The result array: at (b, c, n, m), entry (n, m) of `out` of matrix (b, c). -/
def G (x : Arr) (w : Wts) : Arr := fun i => out (slab x (i 0) (i 1)) (wts w) (i 2) (i 3)

theorem G_apply (x : Arr) (w : Wts) (b : Fin 4096) (c : Fin 64) (n m : Fin 16) :
    G x w (ix4 b c n m) = out (slab x b c) (wts w) n m := rfl

/-- "Row counter (plus zero) equals column counter", as one bit: set exactly on the diagonal (all 256 cases). -/
theorem diag_bit (n m : Fin 16) :
    IntOp.cmpi .eq (IntOp.addi (BitVec.ofNat 32 n.val) 0#32) (BitVec.ofNat 32 m.val) = if n = m then 1#1 else 0#1 := by
  revert n m; decide

/-- That bit read as an unsigned number is the identity matrix's entry. -/
theorem eye_unsigned (n m : Fin 16) :
    FloatOps.uitofp (F := Ideal) .f32 (IntOp.cmpi .eq (IntOp.addi (BitVec.ofNat 32 n.val) 0#32) (BitVec.ofNat 32 m.val))
      = eye n m := by
  rw [diag_bit]
  unfold eye
  by_cases h : n = m
  · rw [if_pos h, if_pos h]
    show ((((1#1 : BitVec 1).toNat : ℕ) : ℝ) : EReal) = 1
    rw [show (1#1 : BitVec 1).toNat = 1 from rfl, Nat.cast_one, EReal.coe_one]
  · rw [if_neg h, if_neg h]
    show ((((0#1 : BitVec 1).toNat : ℕ) : ℝ) : EReal) = 0
    rw [show (0#1 : BitVec 1).toNat = 0 from rfl, Nat.cast_zero, EReal.coe_zero]

/-- The same bit widened to 32 bits and read as a signed number is the same entry. -/
theorem eye_signed (n m : Fin 16) :
    FloatOps.sitofp (F := Ideal) .f32
        ((IntOp.cmpi .eq (IntOp.addi (BitVec.ofNat 32 n.val) 0#32) (BitVec.ofNat 32 m.val)).setWidth 32)
      = eye n m := by
  rw [diag_bit]
  unfold eye
  by_cases h : n = m
  · rw [if_pos h, if_pos h]
    show (((((1#1 : BitVec 1).setWidth 32).toInt : ℤ) : ℝ) : EReal) = 1
    rw [show ((1#1 : BitVec 1).setWidth 32).toInt = 1 from by decide, Int.cast_one, EReal.coe_one]
  · rw [if_neg h, if_neg h]
    show (((((0#1 : BitVec 1).setWidth 32).toInt : ℤ) : ℝ) : EReal) = 0
    rw [show ((0#1 : BitVec 1).setWidth 32).toInt = 0 from by decide, Int.cast_zero, EReal.coe_zero]

end Cert.Layer

end
-- ==== Proof.LibContract.lean ====
/-
  A contraction over ONE axis read at an output index, at the ideal values: whatever the operands' ranks and whichever
  axes are batched, kept or contracted, the product's entry is the sum over the contracted coordinate `k` of the left
  operand at an index `L k` times the right operand at an index `R k`, once the dimension numbers' two index maps are
  known at each `k` (`hL`, `hR`: for a literal record, coordinate by coordinate, by evaluation). Stated for the
  raw sum (`sum_contr`), for a kernel's product into the zero splat (`matmul_zero`) and for the host's (`dotGeneral`).
-/
import Idealize.ShloMosaic.Lib.ValueIdx
import Idealize.ShloMosaic.PureOps.Ideal.Laws

namespace Contract1

open Idealize.ShloMosaic Idealize.ShloMosaic.ValueIdx

variable {sl sr so : Shape} {φ₁ φ₂ : FTy}

/-- The contraction's sum re-indexed by the one contracted coordinate. -/
theorem sum_contr (D : DotDims sl sr so) (K : ℕ) (hr : D.contr.rank = 1) (hs : D.contr.size ⟨0, by omega⟩ = K)
    (x : sl.Idx → EReal) (w : sr.Idx → EReal) (j : so.Idx) (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    ∑ q : D.contr.Idx, x (D.lhsIdx j q) * w (D.rhsIdx j q) = ∑ k : Fin K, x (L k) * w (R k) := by
  rw [← Equiv.sum_comp (contrEquiv1 D K hr hs).symm]
  refine Finset.sum_congr rfl fun k _ => ?_
  have hk := contrEquiv1_symm_val D K hr hs k
  rw [hL k _ hk, hR k _ hk]

/-- A kernel's product into the zero splat at an output index. -/
theorem matmul_zero (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    matmul D prec x w (constant (F := Ideal) so .f32 0x00000000#32) j = ∑ k : Fin K, x (L k) * w (R k) :=
  (Ideal.matmul_constant_zero_apply D prec x w j).trans (sum_contr D K hr hs x w j L R hL hR)

/-- The host's product at an output index: the same sum. -/
theorem dotGeneral (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    Host.dotGeneral D prec x w j = ∑ k : Fin K, x (L k) * w (R k) :=
  (Ideal.dotGeneral_apply D prec .single x w j).trans (sum_contr D K hr hs x w j L R hL hR)

end Contract1
-- ==== Proof.BlockLayer.lean ====
/-
  The kernel's body on one block is the formula of `Layer`. A block is 64 × 64 matrices; the body lays them out as
  4096 matrices in a row — matrix (p, c) of the block is number 64·p + c (`flat`) — and does every product as a product
  batched over that one leading axis: read at (B, n, m) it is the sum over k of the left operand at (B, n, k) times the
  right at (B, k, m), or at (B, m, k) where the right operand is taken transposed (`nn_at`, `nt_at`). Stage by stage,
  at matrix number 64·p + c, the body's values are the matrices A₀ … A₆ of matrix (p, c) of the block, the partial sums of
  M in order, and finally X + M · X, laid back out as 64 × 64 matrices (`body_at`).
-/
import proofs.«151934_j50062138802796_1_alg».proof.Proof.Gen.KernelIdeal.Frame
import proofs.«151934_j50062138802796_1_alg».proof.Proof.Layer
import proofs.«151934_j50062138802796_1_alg».proof.Proof.LibContract
import Idealize.ShloMosaic.Lib.Pipeline.Value
import Idealize.ShloMosaic.Lib.ValueIdx
import Idealize.ShloMosaic.PureOps.Ideal.Laws

noncomputable section

namespace Cert.KernelIdeal.BlockLayer

open Cert.KernelIdeal Cert.KernelIdeal.Gen Idealize.ShloMosaic Idealize.ShloMosaic.TcCoe
open Idealize.ShloMosaic.ValueIdx Cert.Layer

/-! ## The two batched products at an index -/

theorem nn_lhs0 (i : S4096x16x16.Idx) (q : dot_S4096x16x16_S4096x16x16_S4096x16x16_2_1_1_2_0_0.contr.Idx) :
    (dot_S4096x16x16_S4096x16x16_S4096x16x16_2_1_1_2_0_0.lhsIdx i q 0).val = (i 0).val := by
  unfold DotDims.lhsIdx
  rw [dif_pos (show (0 : Fin S4096x16x16.rank) ∈ dot_S4096x16x16_S4096x16x16_S4096x16x16_2_1_1_2_0_0.lhsBatch by decide)]
  rfl
theorem nn_lhs1 (i : S4096x16x16.Idx) (q : dot_S4096x16x16_S4096x16x16_S4096x16x16_2_1_1_2_0_0.contr.Idx) :
    (dot_S4096x16x16_S4096x16x16_S4096x16x16_2_1_1_2_0_0.lhsIdx i q 1).val = (i 1).val := by
  unfold DotDims.lhsIdx
  rw [dif_neg (show ¬(1 : Fin S4096x16x16.rank) ∈ dot_S4096x16x16_S4096x16x16_S4096x16x16_2_1_1_2_0_0.lhsBatch by decide), dif_pos (show (1 : Fin S4096x16x16.rank) ∈ dot_S4096x16x16_S4096x16x16_S4096x16x16_2_1_1_2_0_0.lhsNonContracting by decide)]
  rfl
theorem nn_lhs2 (i : S4096x16x16.Idx) (q : dot_S4096x16x16_S4096x16x16_S4096x16x16_2_1_1_2_0_0.contr.Idx) :
    (dot_S4096x16x16_S4096x16x16_S4096x16x16_2_1_1_2_0_0.lhsIdx i q 2).val = (q ⟨0, by decide⟩).val :=
  dot_S4096x16x16_S4096x16x16_S4096x16x16_2_1_1_2_0_0.lhsIdx_val_of_single rfl i q
theorem nn_rhs0 (i : S4096x16x16.Idx) (q : dot_S4096x16x16_S4096x16x16_S4096x16x16_2_1_1_2_0_0.contr.Idx) :
    (dot_S4096x16x16_S4096x16x16_S4096x16x16_2_1_1_2_0_0.rhsIdx i q 0).val = (i 0).val := by
  unfold DotDims.rhsIdx
  rw [dif_pos (show (0 : Fin S4096x16x16.rank) ∈ dot_S4096x16x16_S4096x16x16_S4096x16x16_2_1_1_2_0_0.rhsBatch by decide)]
  rfl
theorem nn_rhs1 (i : S4096x16x16.Idx) (q : dot_S4096x16x16_S4096x16x16_S4096x16x16_2_1_1_2_0_0.contr.Idx) :
    (dot_S4096x16x16_S4096x16x16_S4096x16x16_2_1_1_2_0_0.rhsIdx i q 1).val = (q ⟨0, by decide⟩).val :=
  dot_S4096x16x16_S4096x16x16_S4096x16x16_2_1_1_2_0_0.rhsIdx_val_of_single rfl i q
theorem nn_rhs2 (i : S4096x16x16.Idx) (q : dot_S4096x16x16_S4096x16x16_S4096x16x16_2_1_1_2_0_0.contr.Idx) :
    (dot_S4096x16x16_S4096x16x16_S4096x16x16_2_1_1_2_0_0.rhsIdx i q 2).val = (i 2).val := by
  unfold DotDims.rhsIdx
  rw [dif_neg (show ¬(2 : Fin S4096x16x16.rank) ∈ dot_S4096x16x16_S4096x16x16_S4096x16x16_2_1_1_2_0_0.rhsBatch by decide), dif_pos (show (2 : Fin S4096x16x16.rank) ∈ dot_S4096x16x16_S4096x16x16_S4096x16x16_2_1_1_2_0_0.rhsNonContracting by decide)]
  rfl
theorem nt_lhs0 (i : S4096x16x16.Idx) (q : dot_S4096x16x16_S4096x16x16_S4096x16x16_2_2_1_1_0_0.contr.Idx) :
    (dot_S4096x16x16_S4096x16x16_S4096x16x16_2_2_1_1_0_0.lhsIdx i q 0).val = (i 0).val := by
  unfold DotDims.lhsIdx
  rw [dif_pos (show (0 : Fin S4096x16x16.rank) ∈ dot_S4096x16x16_S4096x16x16_S4096x16x16_2_2_1_1_0_0.lhsBatch by decide)]
  rfl
theorem nt_lhs1 (i : S4096x16x16.Idx) (q : dot_S4096x16x16_S4096x16x16_S4096x16x16_2_2_1_1_0_0.contr.Idx) :
    (dot_S4096x16x16_S4096x16x16_S4096x16x16_2_2_1_1_0_0.lhsIdx i q 1).val = (i 1).val := by
  unfold DotDims.lhsIdx
  rw [dif_neg (show ¬(1 : Fin S4096x16x16.rank) ∈ dot_S4096x16x16_S4096x16x16_S4096x16x16_2_2_1_1_0_0.lhsBatch by decide), dif_pos (show (1 : Fin S4096x16x16.rank) ∈ dot_S4096x16x16_S4096x16x16_S4096x16x16_2_2_1_1_0_0.lhsNonContracting by decide)]
  rfl
theorem nt_lhs2 (i : S4096x16x16.Idx) (q : dot_S4096x16x16_S4096x16x16_S4096x16x16_2_2_1_1_0_0.contr.Idx) :
    (dot_S4096x16x16_S4096x16x16_S4096x16x16_2_2_1_1_0_0.lhsIdx i q 2).val = (q ⟨0, by decide⟩).val :=
  dot_S4096x16x16_S4096x16x16_S4096x16x16_2_2_1_1_0_0.lhsIdx_val_of_single rfl i q
theorem nt_rhs0 (i : S4096x16x16.Idx) (q : dot_S4096x16x16_S4096x16x16_S4096x16x16_2_2_1_1_0_0.contr.Idx) :
    (dot_S4096x16x16_S4096x16x16_S4096x16x16_2_2_1_1_0_0.rhsIdx i q 0).val = (i 0).val := by
  unfold DotDims.rhsIdx
  rw [dif_pos (show (0 : Fin S4096x16x16.rank) ∈ dot_S4096x16x16_S4096x16x16_S4096x16x16_2_2_1_1_0_0.rhsBatch by decide)]
  rfl
theorem nt_rhs1 (i : S4096x16x16.Idx) (q : dot_S4096x16x16_S4096x16x16_S4096x16x16_2_2_1_1_0_0.contr.Idx) :
    (dot_S4096x16x16_S4096x16x16_S4096x16x16_2_2_1_1_0_0.rhsIdx i q 1).val = (i 2).val := by
  unfold DotDims.rhsIdx
  rw [dif_neg (show ¬(1 : Fin S4096x16x16.rank) ∈ dot_S4096x16x16_S4096x16x16_S4096x16x16_2_2_1_1_0_0.rhsBatch by decide), dif_pos (show (1 : Fin S4096x16x16.rank) ∈ dot_S4096x16x16_S4096x16x16_S4096x16x16_2_2_1_1_0_0.rhsNonContracting by decide)]
  rfl
theorem nt_rhs2 (i : S4096x16x16.Idx) (q : dot_S4096x16x16_S4096x16x16_S4096x16x16_2_2_1_1_0_0.contr.Idx) :
    (dot_S4096x16x16_S4096x16x16_S4096x16x16_2_2_1_1_0_0.rhsIdx i q 2).val = (q ⟨0, by decide⟩).val :=
  dot_S4096x16x16_S4096x16x16_S4096x16x16_2_2_1_1_0_0.rhsIdx_val_of_single rfl i q

/-- The plain batched product at (B, n, m): the sum over k of left (B, n, k) times right (B, k, m). -/
theorem nn_at (u v : FVec Ideal S4096x16x16 .f32) (B : Fin 4096) (n m : Fin 16) :
    matmul dot_S4096x16x16_S4096x16x16_S4096x16x16_2_1_1_2_0_0 none u v (constant (F := Ideal) S4096x16x16 .f32 0x00000000#32) (ix3 B n m)
      = ∑ k : Fin 16, u (ix3 B n k) * v (ix3 B k m) :=
  Contract1.matmul_zero dot_S4096x16x16_S4096x16x16_S4096x16x16_2_1_1_2_0_0 16 rfl rfl none u v (ix3 B n m) (fun k => ix3 B n k) (fun k => ix3 B k m)
    (fun k q hq => funext fun a => Fin.ext (by
      match a with
      | ⟨0, _⟩ => exact nn_lhs0 _ _
      | ⟨1, _⟩ => exact nn_lhs1 _ _
      | ⟨2, _⟩ => exact (nn_lhs2 _ _).trans hq))
    (fun k q hq => funext fun a => Fin.ext (by
      match a with
      | ⟨0, _⟩ => exact nn_rhs0 _ _
      | ⟨1, _⟩ => exact (nn_rhs1 _ _).trans hq
      | ⟨2, _⟩ => exact nn_rhs2 _ _))

/-- The batched product against the transposed right operand at (B, n, m): the sum over k of left (B, n, k) times
    right (B, m, k). -/
theorem nt_at (u v : FVec Ideal S4096x16x16 .f32) (B : Fin 4096) (n m : Fin 16) :
    matmul dot_S4096x16x16_S4096x16x16_S4096x16x16_2_2_1_1_0_0 none u v (constant (F := Ideal) S4096x16x16 .f32 0x00000000#32) (ix3 B n m)
      = ∑ k : Fin 16, u (ix3 B n k) * v (ix3 B m k) :=
  Contract1.matmul_zero dot_S4096x16x16_S4096x16x16_S4096x16x16_2_2_1_1_0_0 16 rfl rfl none u v (ix3 B n m) (fun k => ix3 B n k) (fun k => ix3 B m k)
    (fun k q hq => funext fun a => Fin.ext (by
      match a with
      | ⟨0, _⟩ => exact nt_lhs0 _ _
      | ⟨1, _⟩ => exact nt_lhs1 _ _
      | ⟨2, _⟩ => exact (nt_lhs2 _ _).trans hq))
    (fun k q hq => funext fun a => Fin.ext (by
      match a with
      | ⟨0, _⟩ => exact nt_rhs0 _ _
      | ⟨1, _⟩ => exact nt_rhs1 _ _
      | ⟨2, _⟩ => exact (nt_rhs2 _ _).trans hq))

/-! ## The body, stage by stage -/

variable (x0 : Vec Ideal S64x64x16x16 .f32) (x1 : Vec Ideal S1x1x1x7 .f32)
variable (p c : Fin 64) (n m : Fin 16)

/-- Matrix (p, c) of a block is number 64·p + c of the 4096 matrices the body works on. -/
def flat (p c : Fin 64) : Fin 4096 := ⟨p.val * 64 + c.val, by have := p.isLt; have := c.isLt; omega⟩

/-- The block laid out as 4096 matrices: matrix 64·p + c is matrix (p, c). -/
theorem pay2_at (k : Fin 16) : k0_pay2 x0 (ix3 (flat p c) n k) = slab x0 p c n k := by
  unfold k0_pay2
  exact shapeCast_apply x0 shapeCasts_S64x64x16x16_S4096x16x16 (ix3 (flat p c) n k) (ix4 p c n k) (by
    rw [Shape.rowMajor_val_four, Shape.rowMajor_val_three]
    rfl)

/-- The identity, built from the two counters, made a 1 × 16 × 16 array and repeated for every matrix. -/
theorem eyeK_at (B : Fin 4096) :
    broadcastTo S4096x16x16 (shapeCast S1x16x16 (sitofp (F := Ideal) .f32 (extui 32 (cmpi .eq (addi (iota .tc S16x16 32 [0] iota_S16x16_d0_w32) (broadcast S16x16 0#32)) (iota .tc S16x16 32 [1] iota_S16x16_d1_w32)) natLt_1_32)) shapeCasts_S16x16_S1x16x16) broadcasts_S1x16x16_S4096x16x16 (ix3 B n m)
      = eye n m := by
  refine (broadcastTo_apply _ broadcasts_S1x16x16_S4096x16x16 (ix3 B n m) (ix3 (0 : Fin 1) n m) (fun a => ?_)).trans ?_
  · match a with
    | ⟨0, _⟩ => rfl
    | ⟨1, _⟩ => rfl
    | ⟨2, _⟩ => rfl
  · refine (shapeCast_apply _ shapeCasts_S16x16_S1x16x16 (ix3 (0 : Fin 1) n m) (ix2 n m) (by
      rw [Shape.rowMajor_val_two, Shape.rowMajor_val_three]
      show n.val * 16 + m.val = (0 * 16 + n.val) * 16 + m.val
      omega)).trans ?_
    show FloatOps.sitofp (F := Ideal) .f32 ((IntOp.cmpi .eq (IntOp.addi (BitVec.ofNat 32 (0 * 16 + n.val)) 0#32) (BitVec.ofNat 32 (0 * 16 + m.val))).setWidth 32) = eye n m
    simp only [Nat.zero_mul, Nat.zero_add]
    exact eye_signed n m

/-- A₀ = I − X · Xᵀ. -/
theorem pay3_at : k0_pay3 x0 (ix3 (flat p c) n m) = pw (slab x0 p c) 0 n m := by
  unfold k0_pay3
  refine congrArg₂ (fun a b : EReal => a - b) (eyeK_at n m (flat p c)) ((nt_at _ _ (flat p c) n m).trans ?_)
  simp only [pay2_at]
  rfl

theorem pay4_at : k0_pay4 x0 (ix3 (flat p c) n m) = pw (slab x0 p c) 1 n m := by
  unfold k0_pay4
  refine (nn_at _ _ (flat p c) n m).trans ?_
  simp only [pay3_at]
  rfl

theorem pay5_at : k0_pay5 x0 (ix3 (flat p c) n m) = pw (slab x0 p c) 2 n m := by
  unfold k0_pay5
  refine (nn_at _ _ (flat p c) n m).trans ?_
  simp only [pay4_at]
  rfl

theorem pay6_at : k0_pay6 x0 (ix3 (flat p c) n m) = pw (slab x0 p c) 3 n m := by
  unfold k0_pay6
  refine (nn_at _ _ (flat p c) n m).trans ?_
  simp only [pay5_at]
  rfl

theorem pay7_at : k0_pay7 x0 (ix3 (flat p c) n m) = pw (slab x0 p c) 4 n m := by
  unfold k0_pay7
  refine (nn_at _ _ (flat p c) n m).trans ?_
  simp only [pay6_at]
  rfl

theorem pay9_at : k0_pay9 x0 (ix3 (flat p c) n m) = pw (slab x0 p c) 5 n m := by
  unfold k0_pay9
  refine (nn_at _ _ (flat p c) n m).trans ?_
  simp only [pay7_at]
  rfl

/-! ## The weights: entry j of the weight block, cut out as a one-entry slice and read -/

theorem wt0_at :
    extractAt ![0, 0, 0, 0] (extractStridedSlice S1x1x1x1 ![0, 0, 0, 0] x1 slices_S1x1x1x7_o0_0_0_0_S1x1x1x1 : FVec Ideal S1x1x1x1 .f32) inpos_S1x1x1x1_p0_0_0_0
      = wts x1 0 :=
  congrArg x1 (funext fun a => Fin.ext (by
    match a with
    | ⟨0, _⟩ => rfl
    | ⟨1, _⟩ => rfl
    | ⟨2, _⟩ => rfl
    | ⟨3, _⟩ => rfl))

theorem wt1_at :
    extractAt ![0, 0, 0, 0] (extractStridedSlice S1x1x1x1 ![0, 0, 0, 1] x1 slices_S1x1x1x7_o0_0_0_1_S1x1x1x1 : FVec Ideal S1x1x1x1 .f32) inpos_S1x1x1x1_p0_0_0_0
      = wts x1 1 :=
  congrArg x1 (funext fun a => Fin.ext (by
    match a with
    | ⟨0, _⟩ => rfl
    | ⟨1, _⟩ => rfl
    | ⟨2, _⟩ => rfl
    | ⟨3, _⟩ => rfl))

theorem wt2_at :
    extractAt ![0, 0, 0, 0] (extractStridedSlice S1x1x1x1 ![0, 0, 0, 2] x1 slices_S1x1x1x7_o0_0_0_2_S1x1x1x1 : FVec Ideal S1x1x1x1 .f32) inpos_S1x1x1x1_p0_0_0_0
      = wts x1 2 :=
  congrArg x1 (funext fun a => Fin.ext (by
    match a with
    | ⟨0, _⟩ => rfl
    | ⟨1, _⟩ => rfl
    | ⟨2, _⟩ => rfl
    | ⟨3, _⟩ => rfl))

theorem wt3_at :
    extractAt ![0, 0, 0, 0] (extractStridedSlice S1x1x1x1 ![0, 0, 0, 3] x1 slices_S1x1x1x7_o0_0_0_3_S1x1x1x1 : FVec Ideal S1x1x1x1 .f32) inpos_S1x1x1x1_p0_0_0_0
      = wts x1 3 :=
  congrArg x1 (funext fun a => Fin.ext (by
    match a with
    | ⟨0, _⟩ => rfl
    | ⟨1, _⟩ => rfl
    | ⟨2, _⟩ => rfl
    | ⟨3, _⟩ => rfl))

theorem wt4_at :
    extractAt ![0, 0, 0, 0] (extractStridedSlice S1x1x1x1 ![0, 0, 0, 4] x1 slices_S1x1x1x7_o0_0_0_4_S1x1x1x1 : FVec Ideal S1x1x1x1 .f32) inpos_S1x1x1x1_p0_0_0_0
      = wts x1 4 :=
  congrArg x1 (funext fun a => Fin.ext (by
    match a with
    | ⟨0, _⟩ => rfl
    | ⟨1, _⟩ => rfl
    | ⟨2, _⟩ => rfl
    | ⟨3, _⟩ => rfl))

theorem wt5_at :
    extractAt ![0, 0, 0, 0] (extractStridedSlice S1x1x1x1 ![0, 0, 0, 5] x1 slices_S1x1x1x7_o0_0_0_5_S1x1x1x1 : FVec Ideal S1x1x1x1 .f32) inpos_S1x1x1x1_p0_0_0_0
      = wts x1 5 :=
  congrArg x1 (funext fun a => Fin.ext (by
    match a with
    | ⟨0, _⟩ => rfl
    | ⟨1, _⟩ => rfl
    | ⟨2, _⟩ => rfl
    | ⟨3, _⟩ => rfl))

theorem wt6_at :
    extractAt ![0, 0, 0, 0] (extractStridedSlice S1x1x1x1 ![0, 0, 0, 6] x1 slices_S1x1x1x7_o0_0_0_6_S1x1x1x1 : FVec Ideal S1x1x1x1 .f32) inpos_S1x1x1x1_p0_0_0_0
      = wts x1 6 :=
  congrArg x1 (funext fun a => Fin.ext (by
    match a with
    | ⟨0, _⟩ => rfl
    | ⟨1, _⟩ => rfl
    | ⟨2, _⟩ => rfl
    | ⟨3, _⟩ => rfl))

/-- The first five terms of M, added from the left. -/
theorem pay8_at : k0_pay8 x0 x1 (ix3 (flat p c) n m)
    = wts x1 0 * pw (slab x0 p c) 0 n m + wts x1 1 * pw (slab x0 p c) 1 n m + wts x1 2 * pw (slab x0 p c) 2 n m
      + wts x1 3 * pw (slab x0 p c) 3 n m + wts x1 4 * pw (slab x0 p c) 4 n m := by
  unfold k0_pay8
  simp only [addf_apply, mulf_apply, broadcast_apply, wt0_at, wt1_at, wt2_at, wt3_at, wt4_at,
    pay3_at, pay4_at, pay5_at, pay6_at, pay7_at]

/-- The rest of the body: the last two terms of M, the product M · X, the sum with X, laid back out as 64 × 64 matrices. -/
theorem pay1_at : k0_pay1 (k0_pay2 x0) x1 (k0_pay8 x0 x1) (k0_pay9 x0) (k0_pay10 x1) (ix4 p c n m)
    = out (slab x0 p c) (wts x1) n m := by
  unfold k0_pay1
  refine (shapeCast_apply _ shapeCasts_S4096x16x16_S64x64x16x16 (ix4 p c n m) (ix3 (flat p c) n m) (by
    rw [Shape.rowMajor_val_four, Shape.rowMajor_val_three]
    rfl)).trans ?_
  rw [addf_apply, nn_at, pay2_at]
  unfold k0_pay10
  simp only [addf_apply, mulf_apply, broadcast_apply, nn_at, wt5_at, wt6_at, pay2_at, pay8_at, pay9_at]
  rfl

/-- The body reads and writes whole blocks: every access starts at offset zero on every axis. -/
theorem hz : (![0, 0, 0, 0] : Fin 4 → Nat) = fun _ => 0 := funext fun a => by fin_cases a <;> rfl

/-- What the body leaves in the output block, at (p, c, n, m): entry (n, m) of `out` of matrix (p, c) of the input block. -/
theorem body_at : out0_2 x0 x1 (ix4 p c n m) = out (slab x0 p c) (wts x1) n m := by
  unfold out0_2
  rw [View.canon_unit_zero hz]
  simp only [View.ld_unit_zero (S := S64x64x16x16) hz, View.ld_unit_zero (S := S1x1x1x7) hz]
  exact pay1_at x0 x1 p c n m

/-- The same at any index j of the block: matrix (j 0, j 1), entry (j 2, j 3). -/
theorem body_idx (j : S64x64x16x16.Idx) : out0_2 x0 x1 j = out (slab x0 (j 0) (j 1)) (wts x1) (j 2) (j 3) := by
  obtain ⟨p, c, n, m, rfl⟩ : ∃ (p c : Fin 64) (n m : Fin 16), j = ix4 p c n m := ⟨j 0, j 1, j 2, j 3, eq_ix4 j⟩
  exact body_at x0 x1 p c n m

end Cert.KernelIdeal.BlockLayer

end
-- ==== Proof.KernelLayer.lean ====
/-
  From blocks to the array. The grid has 64 points; point t fetches block t of the argument along its leading axis —
  matrices (64·t + p, c) for p, c < 64 — together with the whole weight array, and writes block t of the result. What it
  writes is the body's value on that block (`BlockLayer.body_idx`): at (p, c, n, m), entry (n, m) of `out` of matrix (p, c)
  of the block, which is matrix (64·t + p, c) of the argument. So every point writes its block of the one function
  `G` of the two argument arrays (`flushed_eq`); the 64 blocks tile the array (row b lies in block b / 64: `cover`), so
  the result array ends holding `G` (`final`), and the kernel's run ends with it there and the arguments as they were
  (`run`).
-/
import proofs.«151934_j50062138802796_1_alg».proof.Proof.Gen.KernelIdeal.Value
import proofs.«151934_j50062138802796_1_alg».proof.Proof.BlockLayer

noncomputable section

namespace Cert.KernelIdeal.KernelLayer

open Cert.KernelIdeal Cert.KernelIdeal.Gen Cert.KernelIdeal.Value Cert.KernelIdeal.BlockLayer
open Idealize.ShloMosaic Idealize.ShloMosaic.TcCoe Idealize.SL.Sem Idealize.ShloMosaic.ValueIdx Cert.Layer
open Idealize.ShloMosaic.Pipeline (Dat)

variable (m : (ℓ : Loc nD τ sig) → Buf (Elt Ideal) ℓ) (ρ : Dev nD → PrngReg)

/-- The index maps over the 64 grid points: the argument's and the result's block at point t is block t along the
    leading axis and block 0 along the others; the weights' block is always the one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The argument's block at point t, at (p, c, n, k), is the argument at (64·t + p, c, n, k). -/
theorem arg_block_at (c : Dev nD) (t : Fin cfg0.N) (j : S64x64x16x16.Idx) (i : S4096x64x16x16.Idx)
    (h0 : (i 0).val = t.val * 64 + (j 0).val) (h1 : (i 1).val = (j 1).val) (h2 : (i 2).val = (j 2).val)
    (h3 : (i 3).val = (j 3).val) :
    (iblk m c 0 t : Vec Ideal S64x64x16x16 .f32) j = V m c main_arg0 i := by
  obtain ⟨e0, e1, e2, e3, -⟩ := idx_facts t
  show V m c main_arg0 (((cfg0.win 0).blk t).view.emb j) = V m c main_arg0 i
  refine congrArg (V m c main_arg0) (funext fun a => Fin.ext ?_)
  match a with
  | ⟨0, _⟩ => show win0_0.index t (0 : Fin 4) * 64 + 1 * (j 0).val = (i 0).val; omega
  | ⟨1, _⟩ => show win0_0.index t (1 : Fin 4) * 64 + 1 * (j 1).val = (i 1).val; omega
  | ⟨2, _⟩ => show win0_0.index t (2 : Fin 4) * 16 + 1 * (j 2).val = (i 2).val; omega
  | ⟨3, _⟩ => show win0_0.index t (3 : Fin 4) * 16 + 1 * (j 3).val = (i 3).val; omega

/-- The weights' block at every point is the weight array. -/
theorem wts_block_at (c : Dev nD) (t : Fin cfg0.N) (j : S1x1x1x7.Idx) :
    (iblk m c 1 t : Vec Ideal S1x1x1x7 .f32) j = V m c main_arg1 j := by
  obtain ⟨-, -, -, -, e0, e1, e2, e3, -⟩ := idx_facts t
  show V m c main_arg1 (((cfg0.win 1).blk t).view.emb j) = V m c main_arg1 j
  refine congrArg (V m c main_arg1) (funext fun a => Fin.ext ?_)
  match a with
  | ⟨0, _⟩ => show win0_1.index t (0 : Fin 4) * 1 + 1 * (j 0).val = (j 0).val; omega
  | ⟨1, _⟩ => show win0_1.index t (1 : Fin 4) * 1 + 1 * (j 1).val = (j 1).val; omega
  | ⟨2, _⟩ => show win0_1.index t (2 : Fin 4) * 1 + 1 * (j 2).val = (j 2).val; omega
  | ⟨3, _⟩ => show win0_1.index t (3 : Fin 4) * 7 + 1 * (j 3).val = (j 3).val; omega

/-- `out` of equal matrices and weights at equal entries. -/
theorem out_congr {X X' : Mat} {w w' : Fin 7 → EReal} {n n' k k' : Fin 16} (hX : X = X') (hw : w = w') (hn : n = n')
    (hk : k = k') : out X w n k = out X' w' n' k' := by
  subst hX hw hn hk; rfl

/-- What point t writes back is block t of `G` of the argument arrays. -/
theorem flushed_eq (c : Dev nD) (t : Fin cfg0.N) :
    (dats m 0 c).flushed 2 t = ((cfg0.win 2).blk t).view.read (Elt Ideal) (G (V m c main_arg0) (V m c main_arg1)) := by
  rw [flushed2]
  funext j
  show out0_2 (iblk m c 0 t) (iblk m c 1 t) j
    = G (V m c main_arg0) (V m c main_arg1) (((cfg0.win 2).blk t).view.emb j)
  obtain ⟨-, -, -, -, -, -, -, -, e0, e1, e2, e3⟩ := idx_facts t
  have h0 : ((((cfg0.win 2).blk t).view.emb j) 0).val = t.val * 64 + (j 0).val := by
    show win0_2.index t (0 : Fin 4) * 64 + 1 * (j 0).val = _; omega
  have h1 : ((((cfg0.win 2).blk t).view.emb j) 1).val = (j 1).val := by
    show win0_2.index t (1 : Fin 4) * 64 + 1 * (j 1).val = _; omega
  have h2 : ((((cfg0.win 2).blk t).view.emb j) 2).val = (j 2).val := by
    show win0_2.index t (2 : Fin 4) * 16 + 1 * (j 2).val = _; omega
  have h3 : ((((cfg0.win 2).blk t).view.emb j) 3).val = (j 3).val := by
    show win0_2.index t (3 : Fin 4) * 16 + 1 * (j 3).val = _; omega
  refine (body_idx (iblk m c 0 t) (iblk m c 1 t) j).trans ?_
  refine out_congr (funext fun n => funext fun k => ?_) (funext fun r => ?_) (Fin.ext h2.symm) (Fin.ext h3.symm)
  · exact arg_block_at m c t (ix4 (j 0) (j 1) n k) (ix4 _ _ n k) h0 h1 rfl rfl
  · exact wts_block_at m c t (ix4 0 0 0 r)

/-- An index of the array is in point t's block iff each coordinate is in the block's range on its axis. -/
theorem mem_blk (t : Fin cfg0.N) (i : S4096x64x16x16.Idx) :
    i ∈ ((cfg0.win 2).blk t).view.set ↔ ∀ a : Fin 4, win0_2.index t a * S64x64x16x16.size a ≤ (i a).val
      ∧ (i a).val < win0_2.index t a * S64x64x16x16.size a + S64x64x16x16.size a := by
  show i ∈ ((View.whole main_v0).slice (win0_2.rect t)).set ↔ _
  rw [View.set_slice_whole, Rect.mem_set_unit]
  exact Iff.rfl

/-- The 64 blocks tile the array: index (b, c, n, k) lies in the block of point b / 64. -/
theorem cover (i : S4096x64x16x16.Idx) :
    ∃ t : Fin cfg0.N, (cfg0.win 2).flush t = true ∧ i ∈ ((cfg0.win 2).blk t).view.set := by
  have hi0 : (i 0).val < 4096 := (i 0).isLt
  have hi1 : (i 1).val < 64 := (i 1).isLt
  have hi2 : (i 2).val < 16 := (i 2).isLt
  have hi3 : (i 3).val < 16 := (i 3).isLt
  obtain ⟨t, ht⟩ : ∃ t : Fin cfg0.N, t.val = (i 0).val / 64 :=
    ⟨⟨(i 0).val / 64, by rw [show cfg0.N = 64 from N_0]; omega⟩, rfl⟩
  obtain ⟨-, -, -, -, -, -, -, -, e0, e1, e2, e3⟩ := idx_facts t
  refine ⟨t, flush0_2 t, ?_⟩
  rw [mem_blk]
  intro a
  match a with
  | ⟨0, _⟩ => show win0_2.index t (0 : Fin 4) * 64 ≤ (i 0).val ∧ (i 0).val < win0_2.index t (0 : Fin 4) * 64 + 64; omega
  | ⟨1, _⟩ => show win0_2.index t (1 : Fin 4) * 64 ≤ (i 1).val ∧ (i 1).val < win0_2.index t (1 : Fin 4) * 64 + 64; omega
  | ⟨2, _⟩ => show win0_2.index t (2 : Fin 4) * 16 ≤ (i 2).val ∧ (i 2).val < win0_2.index t (2 : Fin 4) * 16 + 16; omega
  | ⟨3, _⟩ => show win0_2.index t (3 : Fin 4) * 16 ≤ (i 3).val ∧ (i 3).val < win0_2.index t (3 : Fin 4) * 16 + 16; omega

/-- The result array after the run is `G` of the argument arrays. -/
theorem final (c : Dev nD) :
    (dats m 0 c).arrAt 2 cfg0.N = G (V m c main_arg0) (V m c main_arg1) :=
  (dats m 0 c).arrAt_eq_of_cover 2 _ (fun t _ => flushed_eq m c t) cover

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v0)
          = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelLayer

end
-- ==== Proof.ReferenceLayer.lean ====
/-
  The reference program, stage by stage, is the formula of `Layer`: its eye, its transposed product X · Xᵀ, its six
  squarings, its seven weighted terms added from the left and its last product, each read at the array index
  (b, c, n, m), are the corresponding 16 × 16 matrices of matrix (b, c) of the argument at entry (n, m). A batched
  product over the two leading axes, read at (b, c, n, m), is the sum over k of the left operand at (b, c, n, k) times the
  right at (b, c, k, m) (`dot_at`): the leading coordinates are carried along, the contracted one is summed. Each weight
  is reached through a reshape to seven entries, a one-entry slice, a reshape to a single number and a broadcast: all
  of it reads entry j of the weight array (`w0_at` … `w6_at`).
-/
import proofs.«151934_j50062138802796_1_alg».proof.Proof.Gen.ReferenceIdeal.Read
import proofs.«151934_j50062138802796_1_alg».proof.Proof.Layer
import proofs.«151934_j50062138802796_1_alg».proof.Proof.LibContract

noncomputable section

namespace Cert.ReferenceIdeal.RefLayer

open Cert.ReferenceIdeal Cert.ReferenceIdeal.Gen Cert.ReferenceIdeal.Read Idealize.ShloMosaic Idealize.ShloMosaic.TcCoe
open Idealize.ShloMosaic.ValueIdx Cert.Layer

variable (x0 : (⟨S4096x64x16x16, .f32⟩ : BufTy).Contents (Elt Ideal)) (x1 : (⟨S1x1x1x7, .f32⟩ : BufTy).Contents (Elt Ideal))
variable (b : Fin 4096) (c : Fin 64) (n m : Fin 16)

/-- The batched product at (b, c, n, m): the sum over k of left (b, c, n, k) times right (b, c, k, m). -/
theorem dot_at (u v : FVec Ideal S4096x64x16x16 .f32) :
    Host.dotGeneral (F := Ideal) dot_S4096x64x16x16_S4096x64x16x16_S4096x64x16x16_3_2_2_3_01_01 none u v (ix4 b c n m) = ∑ k : Fin 16, u (ix4 b c n k) * v (ix4 b c k m) :=
  Contract1.dotGeneral dot_S4096x64x16x16_S4096x64x16x16_S4096x64x16x16_3_2_2_3_01_01 16 rfl rfl none u v (ix4 b c n m) (fun k => ix4 b c n k) (fun k => ix4 b c k m)
    (fun k q hq => funext fun a => Fin.ext (by
      match a with
      | ⟨0, _⟩ => exact lhs_main_v7_0 _ _
      | ⟨1, _⟩ => exact lhs_main_v7_1 _ _
      | ⟨2, _⟩ => exact lhs_main_v7_2 _ _
      | ⟨3, _⟩ => exact (lhs_main_v7_3 _ _).trans hq))
    (fun k q hq => funext fun a => Fin.ext (by
      match a with
      | ⟨0, _⟩ => exact rhs_main_v7_0 _ _
      | ⟨1, _⟩ => exact rhs_main_v7_1 _ _
      | ⟨2, _⟩ => exact (rhs_main_v7_2 _ _).trans hq
      | ⟨3, _⟩ => exact rhs_main_v7_3 _ _))

/-- The transposed argument at (b, c, k, m) is the argument at (b, c, m, k). -/
theorem v6_at (k : Fin 16) : val_main_v6 (F := Ideal) x0 (ix4 b c k m) = x0 (ix4 b c m k) := by
  unfold val_main_v6
  exact transpose_apply [0, 1, 3, 2] x0 transposes_S4096x64x16x16_S4096x64x16x16_0_1_3_2 (ix4 b c k m) (ix4 b c m k)
    (fun a => match a with
      | ⟨0, _⟩ => rfl
      | ⟨1, _⟩ => rfl
      | ⟨2, _⟩ => rfl
      | ⟨3, _⟩ => rfl)

/-- X · Xᵀ. -/
theorem v7_at : val_main_v7 (F := Ideal) x0 (ix4 b c n m) = gram (slab x0 b c) n m := by
  unfold val_main_v7
  rw [dot_at]
  simp only [v6_at]
  rfl

/-- The broadcast eye at (b, c, n, m) is the identity's entry (n, m). -/
theorem v9_at : val_main_v9 (F := Ideal) (ix4 b c n m) = eye n m := by
  rw [val_main_v9_apply, val_main_v8_apply]
  exact eye_unsigned n m

/-- A = I − X · Xᵀ. -/
theorem v10_at : val_main_v10 (F := Ideal) x0 (ix4 b c n m) = pw (slab x0 b c) 0 n m := by
  rw [val_main_v10_apply, v9_at, v7_at]
  rfl

theorem v11_at : val_main_v11 (F := Ideal) x0 (ix4 b c n m) = pw (slab x0 b c) 1 n m := by
  unfold val_main_v11
  rw [dot_at]
  simp only [v10_at]
  rfl

theorem v12_at : val_main_v12 (F := Ideal) x0 (ix4 b c n m) = pw (slab x0 b c) 2 n m := by
  unfold val_main_v12
  rw [dot_at]
  simp only [v11_at]
  rfl

theorem v13_at : val_main_v13 (F := Ideal) x0 (ix4 b c n m) = pw (slab x0 b c) 3 n m := by
  unfold val_main_v13
  rw [dot_at]
  simp only [v12_at]
  rfl

theorem v14_at : val_main_v14 (F := Ideal) x0 (ix4 b c n m) = pw (slab x0 b c) 4 n m := by
  unfold val_main_v14
  rw [dot_at]
  simp only [v13_at]
  rfl

theorem v15_at : val_main_v15 (F := Ideal) x0 (ix4 b c n m) = pw (slab x0 b c) 5 n m := by
  unfold val_main_v15
  rw [dot_at]
  simp only [v14_at]
  rfl

theorem v16_at : val_main_v16 (F := Ideal) x0 (ix4 b c n m) = pw (slab x0 b c) 6 n m := by
  unfold val_main_v16
  rw [dot_at]
  simp only [v15_at]
  rfl

/-- A one-entry vector reshaped to a single number is its entry. -/
theorem scalar_at (v : (⟨S1, .f32⟩ : BufTy).Contents (Elt Ideal)) (j : S_.Idx) :
    shapeCast S_ v shapeCasts_S1_S_ j = v (ix1 0) :=
  shapeCast_apply v shapeCasts_S1_S_ j (ix1 0) (by
    rw [Shape.rowMajor_val_one]
    have h : (S_.rowMajor j).val < 1 := (S_.rowMajor j).isLt
    show (0 : ℕ) = _
    omega)

theorem w0_at (i : S4096x64x16x16.Idx) : val_main_v20 (F := Ideal) x1 i = wts x1 0 := by
  rw [val_main_v20_apply]
  unfold val_main_v19
  rw [scalar_at, val_main_v18_apply, val_main_v17_apply]
  exact congrArg x1 (funext fun a => Fin.ext (by
    match a with
    | ⟨0, _⟩ => rfl
    | ⟨1, _⟩ => rfl
    | ⟨2, _⟩ => rfl
    | ⟨3, _⟩ => rfl))

theorem w1_at (i : S4096x64x16x16.Idx) : val_main_v24 (F := Ideal) x1 i = wts x1 1 := by
  rw [val_main_v24_apply]
  unfold val_main_v23
  rw [scalar_at, val_main_v22_apply, val_main_v17_apply]
  exact congrArg x1 (funext fun a => Fin.ext (by
    match a with
    | ⟨0, _⟩ => rfl
    | ⟨1, _⟩ => rfl
    | ⟨2, _⟩ => rfl
    | ⟨3, _⟩ => rfl))

theorem w2_at (i : S4096x64x16x16.Idx) : val_main_v29 (F := Ideal) x1 i = wts x1 2 := by
  rw [val_main_v29_apply]
  unfold val_main_v28
  rw [scalar_at, val_main_v27_apply, val_main_v17_apply]
  exact congrArg x1 (funext fun a => Fin.ext (by
    match a with
    | ⟨0, _⟩ => rfl
    | ⟨1, _⟩ => rfl
    | ⟨2, _⟩ => rfl
    | ⟨3, _⟩ => rfl))

theorem w3_at (i : S4096x64x16x16.Idx) : val_main_v34 (F := Ideal) x1 i = wts x1 3 := by
  rw [val_main_v34_apply]
  unfold val_main_v33
  rw [scalar_at, val_main_v32_apply, val_main_v17_apply]
  exact congrArg x1 (funext fun a => Fin.ext (by
    match a with
    | ⟨0, _⟩ => rfl
    | ⟨1, _⟩ => rfl
    | ⟨2, _⟩ => rfl
    | ⟨3, _⟩ => rfl))

theorem w4_at (i : S4096x64x16x16.Idx) : val_main_v39 (F := Ideal) x1 i = wts x1 4 := by
  rw [val_main_v39_apply]
  unfold val_main_v38
  rw [scalar_at, val_main_v37_apply, val_main_v17_apply]
  exact congrArg x1 (funext fun a => Fin.ext (by
    match a with
    | ⟨0, _⟩ => rfl
    | ⟨1, _⟩ => rfl
    | ⟨2, _⟩ => rfl
    | ⟨3, _⟩ => rfl))

theorem w5_at (i : S4096x64x16x16.Idx) : val_main_v44 (F := Ideal) x1 i = wts x1 5 := by
  rw [val_main_v44_apply]
  unfold val_main_v43
  rw [scalar_at, val_main_v42_apply, val_main_v17_apply]
  exact congrArg x1 (funext fun a => Fin.ext (by
    match a with
    | ⟨0, _⟩ => rfl
    | ⟨1, _⟩ => rfl
    | ⟨2, _⟩ => rfl
    | ⟨3, _⟩ => rfl))

theorem w6_at (i : S4096x64x16x16.Idx) : val_main_v49 (F := Ideal) x1 i = wts x1 6 := by
  rw [val_main_v49_apply]
  unfold val_main_v48
  rw [scalar_at, val_main_v47_apply, val_main_v17_apply]
  exact congrArg x1 (funext fun a => Fin.ext (by
    match a with
    | ⟨0, _⟩ => rfl
    | ⟨1, _⟩ => rfl
    | ⟨2, _⟩ => rfl
    | ⟨3, _⟩ => rfl))

/-- M = w₀·A₀ + … + w₆·A₆, added from the left. -/
theorem v51_at : val_main_v51 (F := Ideal) x0 x1 (ix4 b c n m) = poly (slab x0 b c) (wts x1) n m := by
  simp only [val_main_v51_apply, val_main_v50_apply, val_main_v46_apply, val_main_v45_apply, val_main_v41_apply,
    val_main_v40_apply, val_main_v36_apply, val_main_v35_apply, val_main_v31_apply, val_main_v30_apply,
    val_main_v26_apply, val_main_v25_apply, val_main_v21_apply,
    w0_at, w1_at, w2_at, w3_at, w4_at, w5_at, w6_at,
    v10_at, v11_at, v12_at, v13_at, v14_at, v15_at, v16_at, Ideal.addf_def, Ideal.mulf_def]
  rfl

/-- M · X. -/
theorem v52_at : val_main_v52 (F := Ideal) x0 x1 (ix4 b c n m) = mm (poly (slab x0 b c) (wts x1)) (slab x0 b c) n m := by
  unfold val_main_v52
  rw [dot_at]
  simp only [v51_at]
  rfl

/-- The reference's result, as a whole array, is `G` of its two arguments. -/
theorem result_at (i : S4096x64x16x16.Idx) : val_main_v53 (F := Ideal) x0 x1 i = G x0 x1 i := by
  obtain ⟨b, c, n, m, rfl⟩ : ∃ (b : Fin 4096) (c : Fin 64) (n m : Fin 16), i = ix4 b c n m :=
    ⟨i 0, i 1, i 2, i 3, eq_ix4 i⟩
  rw [val_main_v53_apply, v52_at, G_apply]
  rfl

theorem result_eq : val_main_v53 (F := Ideal) x0 x1 = G x0 x1 := funext (result_at x0 x1)

end Cert.ReferenceIdeal.RefLayer

end
-- ==== Proof.lean ====
/-
  The proof of `Cert.Claim`: the kernel and its reference compute one function of their two arguments.

  For each of the 4096 × 64 matrices X of the argument and the seven weights w both programs form A = I − X · Xᵀ,
  its powers A, A², A⁴, …, A⁶⁴ by six squarings, the weighted sum M of the seven with the weights as left factors,
  added from the left, and return X + M · X. The two follow that formula operation by operation in the same order, so
  over the extended reals — where a matrix product's entry is the finite sum over the shared index, however the
  operands are laid out or batched — they agree without any law of arithmetic and for every input, infinite entries
  included: the precondition is not used.

  `Proof/Layer.lean` states the formula for one matrix and the result array `G` as one function of the argument
  arrays; `Proof/ReferenceLayer.lean` reads the reference's run as `G`; `Proof/BlockLayer.lean` reads the kernel's body
  on one block of 64 × 64 matrices as the formula on each matrix of the block; `Proof/KernelLayer.lean` puts the 64
  blocks together: the kernel's result array is `G`. The three frames are the generated ones (the reference's is its
  generated run with the result dropped), and the kernel's idealization rewrote nothing, so `preserves` is trivial.
-/
import proofs.«151934_j50062138802796_1_alg».proof.Defs
import proofs.«151934_j50062138802796_1_alg».proof.Proof.Gen.Kernel
import proofs.«151934_j50062138802796_1_alg».proof.Proof.Gen.Kernel.Skeleton
import proofs.«151934_j50062138802796_1_alg».proof.Proof.Gen.Kernel.Launch
import proofs.«151934_j50062138802796_1_alg».proof.Proof.Gen.Kernel.Points
import proofs.«151934_j50062138802796_1_alg».proof.Proof.Gen.Kernel.Frame
import proofs.«151934_j50062138802796_1_alg».proof.Proof.Gen.KernelIdeal
import proofs.«151934_j50062138802796_1_alg».proof.Proof.Gen.KernelIdeal.Skeleton
import proofs.«151934_j50062138802796_1_alg».proof.Proof.Gen.KernelIdeal.Launch
import proofs.«151934_j50062138802796_1_alg».proof.Proof.Gen.KernelIdeal.Points
import proofs.«151934_j50062138802796_1_alg».proof.Proof.Gen.KernelIdeal.Frame
import proofs.«151934_j50062138802796_1_alg».proof.Proof.Gen.ReferenceIdeal
import proofs.«151934_j50062138802796_1_alg».proof.Proof.Gen.Pre_finite_inputs
import proofs.«151934_j50062138802796_1_alg».proof.Proof.Gen.KernelIdeal.Value
import proofs.«151934_j50062138802796_1_alg».proof.Proof.Gen.ReferenceIdeal.Run
import proofs.«151934_j50062138802796_1_alg».proof.Proof.Gen.ReferenceIdeal.Read
import proofs.«151934_j50062138802796_1_alg».proof.Proof.KernelLayer
import proofs.«151934_j50062138802796_1_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `G` of the arguments, and the arguments agree. -/
theorem algebraic : Cert.algebraic_KernelIdeal_ReferenceIdeal := by
  intro m ρ m' ρ' _ hagree
  refine ⟨_, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefLayer.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
